-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  main_v3
-- ==== Kernel.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S8192x5 : Shape := ⟨2, ![8192, 5]⟩
abbrev S8192x8192 : Shape := ⟨2, ![8192, 8192]⟩
abbrev S2048x5 : Shape := ⟨2, ![2048, 5]⟩
abbrev S2048x2048 : Shape := ⟨2, ![2048, 2048]⟩
abbrev S512x5 : Shape := ⟨2, ![512, 5]⟩
abbrev S5x512 : Shape := ⟨2, ![5, 512]⟩
abbrev S2048x512 : Shape := ⟨2, ![2048, 512]⟩

abbrev nBuf : Space → Nat
  | .hbm => 17
  | .vmem => 6
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S_, .f32⟩
  | .hbm, ⟨6, _⟩ => ⟨S8192x1, .f32⟩
  | .hbm, ⟨7, _⟩ => ⟨S_, .f32⟩
  | .hbm, ⟨8, _⟩ => ⟨S8192x3, .f32⟩
  | .hbm, ⟨9, _⟩ => ⟨S8192x3, .f32⟩
  | .hbm, ⟨10, _⟩ => ⟨S8192x5, .f32⟩
  | .hbm, ⟨11, _⟩ => ⟨S8192x5, .f32⟩
  | .hbm, ⟨12, _⟩ => ⟨S8192x8192, .i32⟩
  | .hbm, ⟨13, _⟩ => ⟨S_, .i32⟩
  | .hbm, ⟨14, _⟩ => ⟨S8192x8192, .i32⟩
  | .hbm, ⟨15, _⟩ => ⟨S8192x8192, .i1⟩
  | .hbm, ⟨16, _⟩ => ⟨S8192x8192, .i1⟩
  | .local _ .vmem, ⟨0, _⟩ => ⟨S2048x5, .f32⟩
  | .local _ .vmem, ⟨1, _⟩ => ⟨S2048x5, .f32⟩
  | .local _ .vmem, ⟨2, _⟩ => ⟨S2048x5, .f32⟩
  | .local _ .vmem, ⟨3, _⟩ => ⟨S2048x5, .f32⟩
  | .local _ .vmem, ⟨4, _⟩ => ⟨S2048x2048, .i32⟩
  | .local _ .vmem, ⟨5, _⟩ => ⟨S2048x2048, .i32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c512_i32 : BitVec 32 := 512#32
  let v2 : BitVec 32 := Scalar.muli c0_i32 c512_i32
  v2
def k0_off1 (c0_i32 : BitVec 32) : Fin 2 → Nat :=
  let c512_i32 : BitVec 32 := 512#32
  let v2 : BitVec 32 := Scalar.muli c0_i32 c512_i32
  let v3 : BitVec 32 := v2
  let v4 : Index := Scalar.indexCast v3
  let c0_1 : Index := 0#32
  ![v4.toNat, 0]
def k0_off2 (c0_i32 : BitVec 32) : Fin 2 → Nat :=
  let c0_3 : Index := 0#32
  let c512_i32 : BitVec 32 := 512#32
  let v2 : BitVec 32 := Scalar.muli c0_i32 c512_i32
  let v3 : BitVec 32 := v2
  let v11 : Index := Scalar.indexCast v3
  ![0, v11.toNat]
def k0_mult2 : BitVec 32 :=
  let c1_i32 : BitVec 32 := 1#32
  let c512_i32_5 : BitVec 32 := 512#32
  let v15 : BitVec 32 := Scalar.muli c1_i32 c512_i32_5
  v15
def k0_mult3 : BitVec 32 :=
  let c2_i32 : BitVec 32 := 2#32
  let c512_i32_11 : BitVec 32 := 512#32
  let v28 : BitVec 32 := Scalar.muli c2_i32 c512_i32_11
  v28
def k0_mult4 : BitVec 32 :=
  let c3_i32 : BitVec 32 := 3#32
  let c512_i32_17 : BitVec 32 := 512#32
  let v41 : BitVec 32 := Scalar.muli c3_i32 c512_i32_17
  v41
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S_S8192x3 : S_.BroadcastsInDim S8192x3 (![] : Fin 0 → Fin S8192x3.rank)
  concatenates_S8192x3_S8192x1_S8192x1_S8192x5_d1 : Shape.Concatenates [S8192x3, S8192x1, S8192x1] S8192x5 1
  inb_S2048x5_S2048x5_0_0 : ∀ a, (![0, 0] : Fin 2 → Nat) a + S2048x5.size a ≤ S2048x5.size a
  h_S2048x5 : 0 < S2048x5.numel
  shapeCasts_S2048x5_S2048x5 : S2048x5.ShapeCasts S2048x5
  h_S512x5 : 0 < S512x5.numel
  shapeCasts_S512x5_S512x5 : S512x5.ShapeCasts S512x5
  transposes_S512x5_p1_0_S5x512 : S512x5.Transposes [1, 0] S5x512
  h_S2048x512 : 0 < S2048x512.numel
  natLt_1_32 : 1 < 32
  bcast_S_S8192x8192 : S_.BroadcastsInDim S8192x8192 (![] : Fin 0 → Fin S8192x8192.rank)
  dot_S2048x5_S5x512_S2048x512_1_0_0_1_n_n_wf : DotDims.WF S2048x5 S5x512 S2048x512 [1] [0] [0] [1] [] []
  hrank0 : 0 < grid0.rank
  k0_mult1_dvd : 512 ∣ k0_mult1.toNat
  k0_off1_inb : ∀ (r : Fin 4), ∀ a, (k0_off1 (BitVec.ofNat 32 r.val)) a + S512x5.size a ≤ S2048x5.size a
  k0_off2_inb : ∀ (r : Fin 4), ∀ a, (k0_off2 (BitVec.ofNat 32 r.val)) a + S2048x512.size a ≤ S2048x2048.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x5.size a ≤ S8192x5.size a
  hwx0_0 : ∀ i : grid0.Coords, EltTy.bits .f32 = 32 ∨ (Rect.block (s := S8192x5) S2048x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x5.size a ≤ S8192x5.size a
  hwx0_1 : ∀ i : grid0.Coords, EltTy.bits .f32 = 32 ∨ (Rect.block (s := S8192x5) S2048x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x8192.size a
  hwx0_2 : ∀ i : grid0.Coords, EltTy.bits .i32 = 32 ∨ (Rect.block (s := S8192x8192) S2048x2048.size (cc0_transform_2 i) (hinb0_2 i)).WholeWords (EltTy.packing .i32)

variable [Facts₀]

def dot_S2048x5_S5x512_S2048x512_1_0_0_1_n_n : DotDims S2048x5 S5x512 S2048x512 where
  lhsContracting := [1]
  rhsContracting := [0]
  lhsNonContracting := [0]
  rhsNonContracting := [1]
  lhsBatch := []
  rhsBatch := []
  wf := dot_S2048x5_S5x512_S2048x512_1_0_0_1_n_n_wf

abbrev win0_0 : Pipeline.Window sig grid0 :=
  Pipeline.Window.ofSpec (Memref.whole main_v6) S2048x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S3x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  dot_S8192x3_S3x8192_S8192x8192_1_0_0_1_n_n_wf : DotDims.WF S8192x3 S3x8192 S8192x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.TilesBits.lean ====
/-
  The frame of the tiled radius-mask program: its run terminates without a fault and leaves the point cloud unchanged,
  and what each array holds when it ends.

  The program is a line of host operations (they build the two augmented [8192, 5] matrices from the point cloud), one
  tiled region over a 4 × 4 grid, and a second line of host operations (they turn the region's [8192, 8192] word array
  into bits).  At grid point (i, j) the region's body is handed rows 2048·i … of the left matrix and rows 2048·j … of the
  right matrix, and fills its [2048, 2048] output tile by four stores, one per block of 512 columns; the four column
  blocks are disjoint and together they are the whole tile, so after the body the tile holds the four stored pieces and
  nothing of what it held before.  The body also reads its output tile before each store; nothing is computed from what
  those reads return.

  Everything here is stated for any float instance: the same text is the frame at the word level and at the ideal
  level.
-/
import proofs.«151398_j73478300500255_2_alg».proof.Proof.Gen.Kernel.Launch
import proofs.«151398_j73478300500255_2_alg».proof.Proof.Gen.Kernel.Skeleton
import proofs.«151398_j73478300500255_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What core `c`'s buffers hold when the region is entered: the launch contents after the first line of host
    operations. -/
abbrev entryVal (c : Dev nD) : Valuation τ sig (Elt F) := StableHlo.after (List.flatten [hostOps0]) (fun b => m (c, b))
/-- The same, read at one buffer. -/
abbrev entryAt (c : Dev nD) (b : Ref sig .tc) : Buf (Elt F) ((c : Thread nD τ).loc b) := entryVal m c (Proc.devRef .tc b)

theorem prefix_allocates_nothing : (hostOps0 : List (HloOp τ sig (Elt F))).Forall fun op => op.fresh = ∅ := by
  simp only [List.Forall]; repeat' constructor
theorem suffix_allocates_nothing : (hostOps1 : List (HloOp τ sig (Elt F))).Forall fun op => op.fresh = ∅ := by
  simp only [List.Forall]; repeat' constructor

/-- The program is the first line, the region, the second line: it reduces to the region continued by the second
    line, the buffers at `entryVal`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-- The second line touches only the region's three arrays and buffers the region does not stage. -/
theorem suffix_touches : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem suffix_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_allocates_nothing) op hop
/-- It writes none of the three arrays: each of its operations writes its own result buffer. -/
theorem suffix_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.nary_writes, Finset.mem_singleton] <;> exact StableHlo.devRef_ne_of_ne (by decide)

/-- No operation of the first line writes the point cloud. -/
theorem entry_points (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-- Nor does any operation of the second line: the point cloud ends as launched. -/
theorem exit_points (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (entryVal m c) _ main_arg0 (by exact (by decide : ∀ w, Pipeline.arrRef spec0 w ≠ main_arg0))]
  exact entry_points m c

/-! ## The tiles -/

/-- The block of array `w` that grid point `t` works on, read off the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The left matrix's row block is in its staging buffer at every point, fetched there or not (it is fetched only when
    the row index changes, and is left in place by the body). -/
theorem left_block_staged {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- So is the right matrix's. -/
theorem right_block_staged {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- A run that ends with every array as the proof data say and every other buffer as the second line leaves it
    ends with the point cloud as launched. -/
theorem points_kept_of (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (exit_points m dats c))) h

/-! ## What the body reads and writes -/

/-- The whole [2048, 5] row block of the left matrix. -/
abbrev leftRows : Rect S2048x5 := Rect.unit (s := S2048x5) ![0, 0] S2048x5.size inb_S2048x5_S2048x5_0_0
/-- Rows 512·n … 512·n + 511 of the right matrix's [2048, 5] row block, n = 0, 1, 2, 3. -/
abbrev rightRows0 : Rect S2048x5 := Rect.unit (s := S2048x5) (k0_off1 0#32) S512x5.size (k0_off1_inb 0)
abbrev rightRows1 : Rect S2048x5 := Rect.unit (s := S2048x5) (k0_off1 1#32) S512x5.size (k0_off1_inb 1)
abbrev rightRows2 : Rect S2048x5 := Rect.unit (s := S2048x5) (k0_off1 2#32) S512x5.size (k0_off1_inb 2)
abbrev rightRows3 : Rect S2048x5 := Rect.unit (s := S2048x5) (k0_off1 3#32) S512x5.size (k0_off1_inb 3)
/-- Columns 512·n … 512·n + 511 of the [2048, 2048] output tile. -/
abbrev cols0 : Rect S2048x2048 := Rect.unit (s := S2048x2048) (k0_off2 0#32) S2048x512.size (k0_off2_inb 0)
abbrev cols1 : Rect S2048x2048 := Rect.unit (s := S2048x2048) (k0_off2 1#32) S2048x512.size (k0_off2_inb 1)
abbrev cols2 : Rect S2048x2048 := Rect.unit (s := S2048x2048) (k0_off2 2#32) S2048x512.size (k0_off2_inb 2)
abbrev cols3 : Rect S2048x2048 := Rect.unit (s := S2048x2048) (k0_off2 3#32) S2048x512.size (k0_off2_inb 3)

/-- The output tile after the body, from the two row blocks: its four column blocks, the last stored first. Column
    block n is the comparison words of the left rows against right rows 512·n …. -/
def maskTile (x0 : Vec F S2048x5 .f32) (x1 : Vec F S2048x5 .f32) : Vec F S2048x2048 .i32 :=
  View.canon [⟨cols3, k0_pay2 (k0_pay3 (View.ld x0 leftRows)) (View.ld x1 rightRows3)⟩,
    ⟨cols2, k0_pay1 (k0_pay6 (View.ld x0 leftRows) (View.ld x1 rightRows2)) (Scalar.ofBits .f32 0x41100000#32)⟩,
    ⟨cols1, k0_pay5 (View.ld x0 leftRows) (View.ld x1 rightRows1)⟩,
    ⟨cols0, k0_pay4 (View.ld x0 leftRows) (View.ld x1 rightRows0)⟩]

/-- The four column blocks tile the output tile, so every entry of it is in one of them. -/
theorem cols_cover (p3 p2 p1 p0 : Vec F S2048x512 .i32) (y : S2048x2048.Idx) :
    ∃ pc ∈ ([⟨cols3, p3⟩, ⟨cols2, p2⟩, ⟨cols1, p1⟩, ⟨cols0, p0⟩] : List (View.Piece (Elt F) S2048x2048 .i32)), y ∈ pc.1.set :=
  View.cover_of_tiled [⟨cols3, p3⟩, ⟨cols2, p2⟩, ⟨cols1, p1⟩, ⟨cols0, p0⟩] S2048x512.size (by rfl) y

/-! ## The body -/

set_option maxHeartbeats 4000000 in
/-- The body, given the two row blocks in its input buffers and anything in its output buffer, runs to its end
    holding the input buffers as they were and the output buffer at `maskTile` of the two blocks. -/
theorem body_runs (c : Dev nD) (E : Set ℕ) (i : grid0.Coords) (arg2 : Memref sig .tc .vmem S2048x5 .f32) (harg2 : arg2.IsWhole)
    (arg3 : Memref sig .tc .vmem S2048x5 .f32) (harg3 : arg3.IsWhole) (arg4 : Memref sig .tc .vmem S2048x2048 .i32) (harg4 : arg4.IsWhole)
    (x0 : Vec F S2048x5 .f32) (x1 : Vec F S2048x5 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (maskTile x0 x1)) -∗ K ⟨⟩))
      ⊢ wp frame (wpE (defs₀ (F := F)) Variants.none c none) E (cc0__radius_mask_kernel i arg2 harg2 arg3 harg3 arg4 harg4) K := by
  simp only [cc0__radius_mask_kernel_eq_skeleton]; unfold cc0__radius_mask_kernel_skel
  simp only [k0_part1_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cols_cover _ _ _ _)

/-! ## The proof data of the region -/

/-- On core `c`: the arrays as the region finds them; after the body at point `t` each input buffer still at its block
    and the output buffer at `maskTile` of the two blocks; nothing else kept between points. -/
def tiles (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => maskTile (blockAt m c 0 t) (blockAt m c 1 t)
  Φ _ := Pipeline.ΦA spec0 c
  q _ := fullShare
  owed _ := 0

theorem tiles_A (c : Dev nD) (w : Fin cfg0.W) : (tiles m 0 c).A w = entryAt m c (Pipeline.arrRef spec0 w) := by
  dsimp only [tiles]

theorem after_left (c : Dev nD) (t : Fin cfg0.N) : (tiles m 0 c).after 0 t = blockAt m c 0 t := by dsimp only [tiles]
theorem after_right (c : Dev nD) (t : Fin cfg0.N) : (tiles m 0 c).after 1 t = blockAt m c 1 t := by dsimp only [tiles]
theorem after_out (c : Dev nD) (t : Fin cfg0.N) : (tiles m 0 c).after 2 t = maskTile (blockAt m c 0 t) (blockAt m c 1 t) := by dsimp only [tiles]

theorem before_left (c : Dev nD) (t : Fin cfg0.N) (d) : (tiles m 0 c).before 0 t d = blockAt m c 0 t :=
  left_block_staged m (tiles m 0 c) (tiles_A m c 0) (after_left m c) t d
theorem before_right (c : Dev nD) (t : Fin cfg0.N) (d) : (tiles m 0 c).before 1 t d = blockAt m c 1 t :=
  right_block_staged m (tiles m 0 c) (tiles_A m c 1) (after_right m c) t d

/-- What the body is called with at point `t`, -/
def bodyPre (c : Dev nD) (t : Fin cfg0.N) : sProp 𝕄 :=
  iprop((tiles m 0 c).Φ t.castSucc ∗ (tiles m 0 c).owesAt () t.castSucc
    ∗ (∃ d, owns (c : Thread nD τ) (st0_0 t) fullShare ((tiles m 0 c).before 0 t d))
    ∗ (∃ d, owns (c : Thread nD τ) (st0_1 t) fullShare ((tiles m 0 c).before 1 t d))
    ∗ (∃ d, owns (c : Thread nD τ) (st0_2 t) fullShare ((tiles m 0 c).before 2 t d)))

/-- and what it returns. -/
def bodyPost (c : Dev nD) (t : Fin cfg0.N) : sProp 𝕄 :=
  iprop((tiles m 0 c).Φ t.succ ∗ (tiles m 0 c).owesAt () t.succ
    ∗ owns (c : Thread nD τ) (st0_0 t) fullShare ((tiles m 0 c).after 0 t)
    ∗ owns (c : Thread nD τ) (st0_1 t) fullShare ((tiles m 0 c).after 1 t)
    ∗ owns (c : Thread nD τ) (st0_2 t) fullShare ((tiles m 0 c).after 2 t))

/-- The body at any point: the input buffers hold their blocks, so `body_runs` applies; the rest passes through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_left, before_right]
  rw [show (tiles m 0 c).Φ t.succ = (tiles m 0 c).Φ t.castSucc from rfl,
    show (tiles m 0 c).owesAt () t.succ = (tiles m 0 c).owesAt () t.castSucc from rfl,
    after_left, after_right, after_out]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_everywhere (c : Dev nD) : BodyObligation (tiles (F := F) m 0 c) (defs₀ (F := F)) Variants.none () Set.univ := fun t => by
  rw [bigSep_W0, bigSep_W0]
  exact body_at m c t

/-! ## The run -/

set_option backward.isDefEq.respectTransparency.types false in
/-- Every weakly fair execution of the program terminates without a fault; at the end each of the region's arrays
    holds what the tiles say and every other buffer what the second line of host operations leaves there. -/
theorem run_main : θ_run defs (onTc (τ := τ) (main (F := F))) (s₀ m ρ) (Pipeline.FramePost cfgs (tiles m) 0 (Pipeline.afterTail₀ cfgs (tiles m) 0 (entryVal m) [hostOps1])) :=
  Pipeline.θ_run_frame_around cfgs (tiles m) (0 : Fin 1) launch0 defs₀ Variants.none m ρ main
    (hbody := fun c => (body_everywhere m c).loose) (hshare := fun c => (tiles m 0 c).share_full fun _ => rfl)
    (howed := fun _ _ => rfl) (V₀ := entryVal m) (opss := [hostOps1]) (hsub := suffix_touches) (hfresh := suffix_fresh) (hkeep := suffix_keeps_arrays)
    (hmain := main_around m Variants.none) (hA := tiles_A m) (hΦ := fun _ _ => rfl)

/-- The frame: the run terminates without a fault and the point cloud ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  points_kept_of m ρ (tiles m) (tiles_A m) (run_main m ρ)

end Cert.Kernel.Tiles

end
-- ==== Proof.TilesIdeal.lean ====
/-
  The frame of the tiled radius-mask program: its run terminates without a fault and leaves the point cloud unchanged,
  and what each array holds when it ends.

  The program is a line of host operations (they build the two augmented [8192, 5] matrices from the point cloud), one
  tiled region over a 4 × 4 grid, and a second line of host operations (they turn the region's [8192, 8192] word array
  into bits).  At grid point (i, j) the region's body is handed rows 2048·i … of the left matrix and rows 2048·j … of the
  right matrix, and fills its [2048, 2048] output tile by four stores, one per block of 512 columns; the four column
  blocks are disjoint and together they are the whole tile, so after the body the tile holds the four stored pieces and
  nothing of what it held before.  The body also reads its output tile before each store; nothing is computed from what
  those reads return.

  Everything here is stated for any float instance: the same text is the frame at the word level and at the ideal
  level.
-/
import proofs.«151398_j73478300500255_2_alg».proof.Proof.Gen.KernelIdeal.Launch
import proofs.«151398_j73478300500255_2_alg».proof.Proof.Gen.KernelIdeal.Skeleton
import proofs.«151398_j73478300500255_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What core `c`'s buffers hold when the region is entered: the launch contents after the first line of host
    operations. -/
abbrev entryVal (c : Dev nD) : Valuation τ sig (Elt F) := StableHlo.after (List.flatten [hostOps0]) (fun b => m (c, b))
/-- The same, read at one buffer. -/
abbrev entryAt (c : Dev nD) (b : Ref sig .tc) : Buf (Elt F) ((c : Thread nD τ).loc b) := entryVal m c (Proc.devRef .tc b)

theorem prefix_allocates_nothing : (hostOps0 : List (HloOp τ sig (Elt F))).Forall fun op => op.fresh = ∅ := by
  simp only [List.Forall]; repeat' constructor
theorem suffix_allocates_nothing : (hostOps1 : List (HloOp τ sig (Elt F))).Forall fun op => op.fresh = ∅ := by
  simp only [List.Forall]; repeat' constructor

/-- The program is the first line, the region, the second line: it reduces to the region continued by the second
    line, the buffers at `entryVal`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-- The second line touches only the region's three arrays and buffers the region does not stage. -/
theorem suffix_touches : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem suffix_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_allocates_nothing) op hop
/-- It writes none of the three arrays: each of its operations writes its own result buffer. -/
theorem suffix_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.nary_writes, Finset.mem_singleton] <;> exact StableHlo.devRef_ne_of_ne (by decide)

/-- No operation of the first line writes the point cloud. -/
theorem entry_points (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-- Nor does any operation of the second line: the point cloud ends as launched. -/
theorem exit_points (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (entryVal m c) _ main_arg0 (by exact (by decide : ∀ w, Pipeline.arrRef spec0 w ≠ main_arg0))]
  exact entry_points m c

/-! ## The tiles -/

/-- The block of array `w` that grid point `t` works on, read off the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The left matrix's row block is in its staging buffer at every point, fetched there or not (it is fetched only when
    the row index changes, and is left in place by the body). -/
theorem left_block_staged {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- So is the right matrix's. -/
theorem right_block_staged {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- A run that ends with every array as the proof data say and every other buffer as the second line leaves it
    ends with the point cloud as launched. -/
theorem points_kept_of (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (exit_points m dats c))) h

/-! ## What the body reads and writes -/

/-- The whole [2048, 5] row block of the left matrix. -/
abbrev leftRows : Rect S2048x5 := Rect.unit (s := S2048x5) ![0, 0] S2048x5.size inb_S2048x5_S2048x5_0_0
/-- Rows 512·n … 512·n + 511 of the right matrix's [2048, 5] row block, n = 0, 1, 2, 3. -/
abbrev rightRows0 : Rect S2048x5 := Rect.unit (s := S2048x5) (k0_off1 0#32) S512x5.size (k0_off1_inb 0)
abbrev rightRows1 : Rect S2048x5 := Rect.unit (s := S2048x5) (k0_off1 1#32) S512x5.size (k0_off1_inb 1)
abbrev rightRows2 : Rect S2048x5 := Rect.unit (s := S2048x5) (k0_off1 2#32) S512x5.size (k0_off1_inb 2)
abbrev rightRows3 : Rect S2048x5 := Rect.unit (s := S2048x5) (k0_off1 3#32) S512x5.size (k0_off1_inb 3)
/-- Columns 512·n … 512·n + 511 of the [2048, 2048] output tile. -/
abbrev cols0 : Rect S2048x2048 := Rect.unit (s := S2048x2048) (k0_off2 0#32) S2048x512.size (k0_off2_inb 0)
abbrev cols1 : Rect S2048x2048 := Rect.unit (s := S2048x2048) (k0_off2 1#32) S2048x512.size (k0_off2_inb 1)
abbrev cols2 : Rect S2048x2048 := Rect.unit (s := S2048x2048) (k0_off2 2#32) S2048x512.size (k0_off2_inb 2)
abbrev cols3 : Rect S2048x2048 := Rect.unit (s := S2048x2048) (k0_off2 3#32) S2048x512.size (k0_off2_inb 3)

/-- The output tile after the body, from the two row blocks: its four column blocks, the last stored first. Column
    block n is the comparison words of the left rows against right rows 512·n …. -/
def maskTile (x0 : Vec F S2048x5 .f32) (x1 : Vec F S2048x5 .f32) : Vec F S2048x2048 .i32 :=
  View.canon [⟨cols3, k0_pay2 (k0_pay3 (View.ld x0 leftRows)) (View.ld x1 rightRows3)⟩,
    ⟨cols2, k0_pay1 (k0_pay6 (View.ld x0 leftRows) (View.ld x1 rightRows2)) (Scalar.ofBits .f32 0x41100000#32)⟩,
    ⟨cols1, k0_pay5 (View.ld x0 leftRows) (View.ld x1 rightRows1)⟩,
    ⟨cols0, k0_pay4 (View.ld x0 leftRows) (View.ld x1 rightRows0)⟩]

/-- The four column blocks tile the output tile, so every entry of it is in one of them. -/
theorem cols_cover (p3 p2 p1 p0 : Vec F S2048x512 .i32) (y : S2048x2048.Idx) :
    ∃ pc ∈ ([⟨cols3, p3⟩, ⟨cols2, p2⟩, ⟨cols1, p1⟩, ⟨cols0, p0⟩] : List (View.Piece (Elt F) S2048x2048 .i32)), y ∈ pc.1.set :=
  View.cover_of_tiled [⟨cols3, p3⟩, ⟨cols2, p2⟩, ⟨cols1, p1⟩, ⟨cols0, p0⟩] S2048x512.size (by rfl) y

/-! ## The body -/

set_option maxHeartbeats 4000000 in
/-- The body, given the two row blocks in its input buffers and anything in its output buffer, runs to its end
    holding the input buffers as they were and the output buffer at `maskTile` of the two blocks. -/
theorem body_runs (c : Dev nD) (E : Set ℕ) (i : grid0.Coords) (arg2 : Memref sig .tc .vmem S2048x5 .f32) (harg2 : arg2.IsWhole)
    (arg3 : Memref sig .tc .vmem S2048x5 .f32) (harg3 : arg3.IsWhole) (arg4 : Memref sig .tc .vmem S2048x2048 .i32) (harg4 : arg4.IsWhole)
    (x0 : Vec F S2048x5 .f32) (x1 : Vec F S2048x5 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (maskTile x0 x1)) -∗ K ⟨⟩))
      ⊢ wp frame (wpE (defs₀ (F := F)) Variants.none c none) E (cc0__radius_mask_kernel i arg2 harg2 arg3 harg3 arg4 harg4) K := by
  simp only [cc0__radius_mask_kernel_eq_skeleton]; unfold cc0__radius_mask_kernel_skel
  simp only [k0_part1_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cols_cover _ _ _ _)

/-! ## The proof data of the region -/

/-- On core `c`: the arrays as the region finds them; after the body at point `t` each input buffer still at its block
    and the output buffer at `maskTile` of the two blocks; nothing else kept between points. -/
def tiles (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => maskTile (blockAt m c 0 t) (blockAt m c 1 t)
  Φ _ := Pipeline.ΦA spec0 c
  q _ := fullShare
  owed _ := 0

theorem tiles_A (c : Dev nD) (w : Fin cfg0.W) : (tiles m 0 c).A w = entryAt m c (Pipeline.arrRef spec0 w) := by
  dsimp only [tiles]

theorem after_left (c : Dev nD) (t : Fin cfg0.N) : (tiles m 0 c).after 0 t = blockAt m c 0 t := by dsimp only [tiles]
theorem after_right (c : Dev nD) (t : Fin cfg0.N) : (tiles m 0 c).after 1 t = blockAt m c 1 t := by dsimp only [tiles]
theorem after_out (c : Dev nD) (t : Fin cfg0.N) : (tiles m 0 c).after 2 t = maskTile (blockAt m c 0 t) (blockAt m c 1 t) := by dsimp only [tiles]

theorem before_left (c : Dev nD) (t : Fin cfg0.N) (d) : (tiles m 0 c).before 0 t d = blockAt m c 0 t :=
  left_block_staged m (tiles m 0 c) (tiles_A m c 0) (after_left m c) t d
theorem before_right (c : Dev nD) (t : Fin cfg0.N) (d) : (tiles m 0 c).before 1 t d = blockAt m c 1 t :=
  right_block_staged m (tiles m 0 c) (tiles_A m c 1) (after_right m c) t d

/-- What the body is called with at point `t`, -/
def bodyPre (c : Dev nD) (t : Fin cfg0.N) : sProp 𝕄 :=
  iprop((tiles m 0 c).Φ t.castSucc ∗ (tiles m 0 c).owesAt () t.castSucc
    ∗ (∃ d, owns (c : Thread nD τ) (st0_0 t) fullShare ((tiles m 0 c).before 0 t d))
    ∗ (∃ d, owns (c : Thread nD τ) (st0_1 t) fullShare ((tiles m 0 c).before 1 t d))
    ∗ (∃ d, owns (c : Thread nD τ) (st0_2 t) fullShare ((tiles m 0 c).before 2 t d)))

/-- and what it returns. -/
def bodyPost (c : Dev nD) (t : Fin cfg0.N) : sProp 𝕄 :=
  iprop((tiles m 0 c).Φ t.succ ∗ (tiles m 0 c).owesAt () t.succ
    ∗ owns (c : Thread nD τ) (st0_0 t) fullShare ((tiles m 0 c).after 0 t)
    ∗ owns (c : Thread nD τ) (st0_1 t) fullShare ((tiles m 0 c).after 1 t)
    ∗ owns (c : Thread nD τ) (st0_2 t) fullShare ((tiles m 0 c).after 2 t))

/-- The body at any point: the input buffers hold their blocks, so `body_runs` applies; the rest passes through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_left, before_right]
  rw [show (tiles m 0 c).Φ t.succ = (tiles m 0 c).Φ t.castSucc from rfl,
    show (tiles m 0 c).owesAt () t.succ = (tiles m 0 c).owesAt () t.castSucc from rfl,
    after_left, after_right, after_out]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_everywhere (c : Dev nD) : BodyObligation (tiles (F := F) m 0 c) (defs₀ (F := F)) Variants.none () Set.univ := fun t => by
  rw [bigSep_W0, bigSep_W0]
  exact body_at m c t

/-! ## The run -/

set_option backward.isDefEq.respectTransparency.types false in
/-- Every weakly fair execution of the program terminates without a fault; at the end each of the region's arrays
    holds what the tiles say and every other buffer what the second line of host operations leaves there. -/
theorem run_main : θ_run defs (onTc (τ := τ) (main (F := F))) (s₀ m ρ) (Pipeline.FramePost cfgs (tiles m) 0 (Pipeline.afterTail₀ cfgs (tiles m) 0 (entryVal m) [hostOps1])) :=
  Pipeline.θ_run_frame_around cfgs (tiles m) (0 : Fin 1) launch0 defs₀ Variants.none m ρ main
    (hbody := fun c => (body_everywhere m c).loose) (hshare := fun c => (tiles m 0 c).share_full fun _ => rfl)
    (howed := fun _ _ => rfl) (V₀ := entryVal m) (opss := [hostOps1]) (hsub := suffix_touches) (hfresh := suffix_fresh) (hkeep := suffix_keeps_arrays)
    (hmain := main_around m Variants.none) (hA := tiles_A m) (hΦ := fun _ _ => rfl)

/-- The frame: the run terminates without a fault and the point cloud ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  points_kept_of m ρ (tiles m) (tiles_A m) (run_main m ρ)

end Cert.KernelIdeal.Tiles

end
-- ==== Proof.LibNary3.lean ====
/-
  A host operation with three operands, read back.

  A line of host operations leaves in each buffer the value of the operation that wrote it, applied to what its
  operands held.  For an operation whose operands are given as a family, the library states this with the family under a
  binder, where no further rewriting reaches the operands.  For a LITERAL family of three references the value is the
  operation's function applied to the three operands' contents, each at its own reference; the operands can then be
  rewritten in turn.  (The library has the same statement for four operands.)
-/
import Idealize.ShloMosaic.Lib.StableHlo.Run

noncomputable section

namespace Idealize.ShloMosaic.StableHlo

variable {τ : Topo} {sig : RefSig} {Val : EltTy → Type}
variable {x a b y : Ref sig .tc}

/-- The result of an operation on the literal family `![x, a, b]`, at its own result buffer: its function of the three
    operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- What one buffer holds after a line of host operations, computed: each operation's result at its own result buffer
    is its function's value, at any other buffer what was there; a three-operand family is opened at its literals. -/
macro "after_results3" : tactic =>
  `(tactic| (simp only [after_cons, after_nil]
             repeat (first
               | rw [nullary_result] | rw [unary_result] | rw [binary_result]
               | rw [nary3_result]
               | (rw [nullary_result_ne]; rotate_left; decide)
               | (rw [unary_result_ne]; rotate_left; decide)
               | (rw [binary_result_ne]; rotate_left; decide)
               | (rw [nary_result_ne]; rotate_left; decide))))

end Idealize.ShloMosaic.StableHlo

end
-- ==== Proof.Spec.lean ====
/-
  The mathematics of the radius mask, over real point coordinates.

  A cloud of 8192 points in ℝ³ is `p i k` (point `i`, coordinate `k`).  Two points are neighbours when their squared
  distance `‖pᵢ‖² + ‖pⱼ‖² − 2·⟨pᵢ, pⱼ⟩` is at most 9.  One program evaluates that expression term by term (and clamps it
  below at 0, which cannot change a comparison with 9); the other folds it into ONE inner product of length 5 between
  the augmented rows `aᵢ = (−2pᵢ, ‖pᵢ‖², 1)` and `bⱼ = (pⱼ, 1, ‖pⱼ‖²)`.  `aug_inner` is the identity between them.
-/
import Idealize.ShloMosaic.PureOps.Ideal
import Idealize.ShloMosaic.Lib.ValueIdx

noncomputable section

namespace Cert.RadiusMask

open Idealize.ShloMosaic Idealize.ShloMosaic.ValueIdx
open scoped BigOperators

/-- Real point coordinates read as an array of extended reals of shape [8192, 3]. -/
def lift (p : Fin 8192 → Fin 3 → ℝ) : (⟨2, ![8192, 3]⟩ : Shape).Idx → EReal :=
  fun x => ((p (x 0) (x 1) : ℝ) : EReal)

/-- The squared norm of point `i`. -/
def sqn (p : Fin 8192 → Fin 3 → ℝ) (i : Fin 8192) : ℝ := ∑ k : Fin 3, p i k * p i k

/-- The inner product of points `i` and `j`. -/
def gram (p : Fin 8192 → Fin 3 → ℝ) (i j : Fin 8192) : ℝ := ∑ k : Fin 3, p i k * p j k

/-- The squared distance of points `i` and `j`, expanded. -/
def dist2 (p : Fin 8192 → Fin 3 → ℝ) (i j : Fin 8192) : ℝ := sqn p i + sqn p j - 2 * gram p i j

/-- Points `i` and `j` are within distance 3 of each other, as one bit. -/
def within (p : Fin 8192 → Fin 3 → ℝ) (i j : Fin 8192) : BitVec 1 := BitVec.ofBool (decide (dist2 p i j ≤ 9))

/-- The whole adjacency mask, of shape [8192, 8192]. -/
def mask (p : Fin 8192 → Fin 3 → ℝ) : (⟨2, ![8192, 8192]⟩ : Shape).Idx → BitVec 1 :=
  fun y => within p (y 0) (y 1)

/-- Row `i` of the left augmented matrix: `(−2pᵢ, ‖pᵢ‖², 1)`. -/
def arow (p : Fin 8192 → Fin 3 → ℝ) (i : Fin 8192) : Fin 5 → ℝ :=
  ![-2 * p i 0, -2 * p i 1, -2 * p i 2, sqn p i, 1]

/-- Row `j` of the right augmented matrix: `(pⱼ, 1, ‖pⱼ‖²)`. -/
def brow (p : Fin 8192 → Fin 3 → ℝ) (j : Fin 8192) : Fin 5 → ℝ :=
  ![p j 0, p j 1, p j 2, 1, sqn p j]

/-- The length-5 inner product of the augmented rows is the expanded squared distance. -/
theorem aug_inner (p : Fin 8192 → Fin 3 → ℝ) (i j : Fin 8192) :
    ∑ k : Fin 5, arow p i k * brow p j k = dist2 p i j := by
  simp only [arow, brow, dist2, gram, Fin.sum_univ_five, Fin.sum_univ_three]
  simp only [Matrix.cons_val_zero, Matrix.cons_val_one, Matrix.cons_val]
  ring

/-- Clamping below at 0 does not change a comparison with 9. -/
theorem clamp_le_nine (x : ℝ) : max x 0 ≤ 9 ↔ x ≤ 9 := by
  constructor
  · intro h; exact le_trans (le_max_left x 0) h
  · intro h; exact max_le h (by norm_num)

end Cert.RadiusMask

end
-- ==== Proof.KernelSide.lean ====
/-
  The kernel program's pure arithmetic, read at the ideal values.

  Each grid point of the kernel holds a block of 2048 rows of the left augmented matrix and, per column chunk, a block
  of 512 rows of the right augmented matrix.  It forms the 2048 × 512 array of their length-5 inner products, compares
  each with 9 and stores the comparison bit zero-extended to a 32-bit word.  Read at the extended reals, an entry of
  that array is the plain sum of five products, so that the bit at (r, q) says whether the inner product of row r of the
  left block and row q of the right block is at most 9.  A zero-extended bit tested against zero gives the bit back.
  The host builds the two augmented matrices from the points by scaling, a row sum of squares and a concatenation; read
  at an index they are the augmented rows of the specification.
-/
import proofs.«151398_j73478300500255_2_alg».proof.Proof.Spec
import proofs.«151398_j73478300500255_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelSide

open Cert.KernelIdeal Cert.KernelIdeal.Gen Idealize.ShloMosaic Idealize.ShloMosaic.ValueIdx
open scoped BigOperators

/-! ## One column chunk of one block -/

/-- The comparison bits of one chunk: entry (r, q) compares the inner product of row r of the left block with row q of
    the right block against 9. -/
def chunkBit (xa : Vec Ideal S2048x5 .f32) (xb : Vec Ideal S512x5 .f32) : IVec S2048x512 1 :=
  cmpf .ole
    (matmul (F := Ideal) dot_S2048x5_S5x512_S2048x512_1_0_0_1_n_n (some .fp32)
      (shapeCast S2048x5 xa shapeCasts_S2048x5_S2048x5 : FVec Ideal S2048x5 .f32)
      (transpose S5x512 [1, 0] (shapeCast S512x5 xb shapeCasts_S512x5_S512x5 : FVec Ideal S512x5 .f32)
        transposes_S512x5_p1_0_S5x512 : FVec Ideal S5x512 .f32)
      (constant (F := Ideal) S2048x512 .f32 0x00000000#32) : FVec Ideal S2048x512 .f32)
    (broadcast S2048x512 (Scalar.ofBits (F := Ideal) .f32 0x41100000#32) : FVec Ideal S2048x512 .f32)

/-- The words of one chunk: each comparison bit zero-extended to 32 bits. -/
def chunkWord (xa : Vec Ideal S2048x5 .f32) (xb : Vec Ideal S512x5 .f32) : IVec S2048x512 32 :=
  extui 32 (chunkBit xa xb) natLt_1_32

theorem pay4_eq (xa : Vec Ideal S2048x5 .f32) (xb : Vec Ideal S512x5 .f32) :
    k0_pay4 (F := Ideal) xa xb = chunkWord xa xb := rfl

theorem pay5_eq (xa : Vec Ideal S2048x5 .f32) (xb : Vec Ideal S512x5 .f32) :
    k0_pay5 (F := Ideal) xa xb = chunkWord xa xb := rfl

theorem pay2_eq (xa : Vec Ideal S2048x5 .f32) (xb : Vec Ideal S512x5 .f32) :
    k0_pay2 (F := Ideal) (k0_pay3 (F := Ideal) xa) xb = chunkWord xa xb := rfl

theorem pay1_eq (xa : Vec Ideal S2048x5 .f32) (xb : Vec Ideal S512x5 .f32) :
    k0_pay1 (F := Ideal) (k0_pay6 (F := Ideal) xa xb) (Scalar.ofBits (F := Ideal) .f32 0x41100000#32) = chunkWord xa xb := rfl

/-! ## An entry of the chunk is one inner product of length 5 -/

/-- The literal the kernel compares with is 9. -/
theorem nine_val : Ideal.ofBits .f32 0x41100000#32 = ((9 : ℝ) : EReal) := by
  simp [Ideal.ofBits, Ideal.ieee, -EReal.coe_mul]; norm_num

/-- The left operand of the product at output entry (r, q) and contraction index k is row r, column k of the left
    block: the row axis of the output is the left operand's row axis. -/
theorem lhs_row (i : S2048x512.Idx) (c : dot_S2048x5_S5x512_S2048x512_1_0_0_1_n_n.contr.Idx) :
    (dot_S2048x5_S5x512_S2048x512_1_0_0_1_n_n.lhsIdx i c 0).val = (i 0).val := by
  unfold DotDims.lhsIdx
  rw [dif_neg (show ¬(0 : Fin S2048x5.rank) ∈ dot_S2048x5_S5x512_S2048x512_1_0_0_1_n_n.lhsBatch by decide),
    dif_pos (show (0 : Fin S2048x5.rank) ∈ dot_S2048x5_S5x512_S2048x512_1_0_0_1_n_n.lhsNonContracting by decide)]
  rfl

theorem lhs_col (i : S2048x512.Idx) (c : dot_S2048x5_S5x512_S2048x512_1_0_0_1_n_n.contr.Idx) :
    (dot_S2048x5_S5x512_S2048x512_1_0_0_1_n_n.lhsIdx i c 1).val = (c ⟨0, by decide⟩).val :=
  dot_S2048x5_S5x512_S2048x512_1_0_0_1_n_n.lhsIdx_val_of_single rfl i c

theorem rhs_row (i : S2048x512.Idx) (c : dot_S2048x5_S5x512_S2048x512_1_0_0_1_n_n.contr.Idx) :
    (dot_S2048x5_S5x512_S2048x512_1_0_0_1_n_n.rhsIdx i c 0).val = (c ⟨0, by decide⟩).val :=
  dot_S2048x5_S5x512_S2048x512_1_0_0_1_n_n.rhsIdx_val_of_single rfl i c

theorem rhs_col (i : S2048x512.Idx) (c : dot_S2048x5_S5x512_S2048x512_1_0_0_1_n_n.contr.Idx) :
    (dot_S2048x5_S5x512_S2048x512_1_0_0_1_n_n.rhsIdx i c 1).val = (i 1).val := by
  unfold DotDims.rhsIdx
  rw [dif_neg (show ¬(1 : Fin S5x512.rank) ∈ dot_S2048x5_S5x512_S2048x512_1_0_0_1_n_n.rhsBatch by decide),
    dif_pos (show (1 : Fin S5x512.rank) ∈ dot_S2048x5_S5x512_S2048x512_1_0_0_1_n_n.rhsNonContracting by decide)]
  rfl

/-- The product of the left block with the transposed right block, accumulated into zero, read at (r, q): the sum over
    the five columns of row r of the left block times row q of the right block. -/
theorem chunk_dot (xa : Vec Ideal S2048x5 .f32) (xb : Vec Ideal S512x5 .f32) (r : Fin 2048) (q : Fin 512) :
    (matmul (F := Ideal) dot_S2048x5_S5x512_S2048x512_1_0_0_1_n_n (some .fp32)
      (shapeCast S2048x5 xa shapeCasts_S2048x5_S2048x5 : FVec Ideal S2048x5 .f32)
      (transpose S5x512 [1, 0] (shapeCast S512x5 xb shapeCasts_S512x5_S512x5 : FVec Ideal S512x5 .f32)
        transposes_S512x5_p1_0_S5x512 : FVec Ideal S5x512 .f32)
      (constant (F := Ideal) S2048x512 .f32 0x00000000#32) : FVec Ideal S2048x512 .f32) (ix2 r q)
      = ∑ k : Fin 5, xa (ix2 r k) * xb (ix2 q k) := by
  rw [shapeCast_self, shapeCast_self]
  show FloatOps.matmul dot_S2048x5_S5x512_S2048x512_1_0_0_1_n_n (some .fp32) (xa : FVec Ideal S2048x5 .f32)
      (transpose S5x512 [1, 0] (xb : FVec Ideal S512x5 .f32) transposes_S512x5_p1_0_S5x512 : FVec Ideal S5x512 .f32)
      (constant (F := Ideal) S2048x512 .f32 0x00000000#32) (ix2 r q) = _
  rw [Ideal.matmul_constant_zero_apply,
    ← Equiv.sum_comp (contrEquiv1 dot_S2048x5_S5x512_S2048x512_1_0_0_1_n_n 5 rfl rfl).symm]
  refine Finset.sum_congr rfl fun k _ => ?_
  have hk := contrEquiv1_symm_val dot_S2048x5_S5x512_S2048x512_1_0_0_1_n_n 5 rfl rfl k
  have el : dot_S2048x5_S5x512_S2048x512_1_0_0_1_n_n.lhsIdx (ix2 r q)
      ((contrEquiv1 dot_S2048x5_S5x512_S2048x512_1_0_0_1_n_n 5 rfl rfl).symm k) = ix2 r k :=
    funext fun a => Fin.ext (by
      match a with
      | ⟨0, _⟩ => exact lhs_row _ _
      | ⟨1, _⟩ => exact (lhs_col _ _).trans hk)
  have er : transpose S5x512 [1, 0] (xb : FVec Ideal S512x5 .f32) transposes_S512x5_p1_0_S5x512
      (dot_S2048x5_S5x512_S2048x512_1_0_0_1_n_n.rhsIdx (ix2 r q)
        ((contrEquiv1 dot_S2048x5_S5x512_S2048x512_1_0_0_1_n_n 5 rfl rfl).symm k)) = xb (ix2 q k) :=
    transpose_apply [1, 0] xb transposes_S512x5_p1_0_S5x512 _ (ix2 q k) (fun b => match b with
      | ⟨0, _⟩ => ((rhs_row _ _).trans hk).symm
      | ⟨1, _⟩ => (rhs_col (ix2 r q) _).symm)
  rw [el, er]

/-- A sum of five products of reals, formed in the extended reals, is the real sum. -/
theorem coe_sum_five (a b : Fin 5 → ℝ) :
    ∑ k : Fin 5, ((a k : ℝ) : EReal) * ((b k : ℝ) : EReal) = ((∑ k : Fin 5, a k * b k : ℝ) : EReal) := by
  simp only [Fin.sum_univ_five, EReal.coe_add, EReal.coe_mul]

/-- The comparison bit at (r, q) of a chunk whose rows r and q are real: whether their inner product is at most 9. -/
theorem chunkBit_real (xa : Vec Ideal S2048x5 .f32) (xb : Vec Ideal S512x5 .f32) (r : Fin 2048) (q : Fin 512)
    (a b : Fin 5 → ℝ)
    (ha : ∀ k : Fin 5, xa (ix2 r k) = ((a k : ℝ) : EReal)) (hb : ∀ k : Fin 5, xb (ix2 q k) = ((b k : ℝ) : EReal)) :
    chunkBit xa xb (ix2 r q) = BitVec.ofBool (decide (∑ k : Fin 5, a k * b k ≤ 9)) := by
  unfold chunkBit
  rw [cmpf_apply, broadcast_apply, chunk_dot]
  simp only [ha, hb]
  rw [coe_sum_five]
  show Ideal.cmp .ole _ (Ideal.ofBits .f32 0x41100000#32) = _
  rw [nine_val]
  show BitVec.ofBool (decide ((((∑ k : Fin 5, a k * b k : ℝ) : EReal)) ≤ ((9 : ℝ) : EReal))) = _
  exact congrArg BitVec.ofBool (decide_eq_decide.2 EReal.coe_le_coe_iff)

/-! ## The zero-extended bit tested against zero -/

/-- A bit zero-extended to a word is different from zero exactly when the bit is set. -/
theorem word_ne_zero {S : Shape} (v : IVec S 1) (h : 1 < 32) :
    cmpi .ne (extui 32 v h) (constantI S 32 0#32) = v := by
  funext i
  show IntOp.cmpi .ne ((v i).setWidth 32) 0#32 = v i
  by_cases hb : v i = 1#1
  · rw [hb]; decide
  · rw [eq_zero_of_ne_one hb]; decide

/-- The same with the zero word written as the broadcast of a rank-zero constant, as the host writes it. -/
theorem word_ne_zero_bcast {S : Shape} (v : IVec S 1) (h : 1 < 32)
    (hb : S_.BroadcastsInDim S (![] : Fin 0 → Fin S.rank)) :
    cmpi .ne (extui 32 v h) (broadcastInDim S ![] hb (constantI S_ 32 0#32)) = v :=
  word_ne_zero v h

/-! ## The host's augmented matrices -/

open Cert.RadiusMask

/-- The squared norms as the host computes them: the row sums of the squared coordinates. -/
def sqv (X : Vec Ideal S8192x3 .f32) : Vec Ideal S8192 .f32 :=
  Host.reduceAdd (F := Ideal) (mulf X X) (constant (F := Ideal) S_ .f32 0x00000000#32) reducesTo_S8192x3_S8192_d1 h_S_

/-- The left augmented matrix as the host builds it: the columns −2·x, then the squared norm, then 1. -/
def Amat (X : Vec Ideal S8192x3 .f32) : Vec Ideal S8192x5 .f32 :=
  concatenate S8192x5 1
    [⟨S8192x3, mulf (broadcastInDim S8192x3 ![] bcast_S_S8192x3 (constant (F := Ideal) S_ .f32 0xC0000000#32)) X⟩,
     ⟨S8192x1, broadcastInDim S8192x1 ![0] bcast_S8192_S8192x1_0 (sqv X)⟩,
     ⟨S8192x1, broadcastInDim S8192x1 ![] bcast_S_S8192x1 (constant (F := Ideal) S_ .f32 0x3F800000#32)⟩]
    concatenates_S8192x3_S8192x1_S8192x1_S8192x5_d1

/-- The right augmented matrix as the host builds it: the columns x, then 1, then the squared norm. -/
def Bmat (X : Vec Ideal S8192x3 .f32) : Vec Ideal S8192x5 .f32 :=
  concatenate S8192x5 1
    [⟨S8192x3, X⟩,
     ⟨S8192x1, broadcastInDim S8192x1 ![] bcast_S_S8192x1 (constant (F := Ideal) S_ .f32 0x3F800000#32)⟩,
     ⟨S8192x1, broadcastInDim S8192x1 ![0] bcast_S8192_S8192x1_0 (sqv X)⟩]
    concatenates_S8192x3_S8192x1_S8192x1_S8192x5_d1

/-- The literal the host scales the coordinates by is −2. -/
theorem neg_two_val : Ideal.ofBits .f32 0xC0000000#32 = ((-2 : ℝ) : EReal) := by
  simp [Ideal.ofBits, Ideal.ieee, -EReal.coe_mul]; norm_num

/-- The literal of the constant column is 1. -/
theorem one_val : Ideal.ofBits .f32 0x3F800000#32 = ((1 : ℝ) : EReal) := by
  simp [Ideal.ofBits, Ideal.ieee, -EReal.coe_mul]; norm_num

/-- A concatenation of a three-column, a one-column and a one-column array along the columns, read in its first three
    columns, is the first piece. -/
theorem concat_left {α : Type} (u0 : S8192x3.Idx → α) (u1 u2 : S8192x1.Idx → α) (i : Fin 8192) (k : Fin 5) (hk : k.val < 3) :
    concatenate S8192x5 1 [⟨S8192x3, u0⟩, ⟨S8192x1, u1⟩, ⟨S8192x1, u2⟩]
      concatenates_S8192x3_S8192x1_S8192x1_S8192x5_d1 (ix2 i k) = u0 (ix2 i ⟨k.val, hk⟩) :=
  concatenate_apply_piece (1 : Fin S8192x5.rank) _ _ (ix2 i k) 0 (by show (0 : Nat) < 3; omega) S8192x3 u0 rfl rfl 0 rfl (ix2 i ⟨k.val, hk⟩)
    (fun b hb => match b with
      | ⟨0, _⟩ => rfl
      | ⟨1, _⟩ => absurd rfl hb)
    (by show 0 + k.val = k.val; omega)

/-- Read in its fourth column it is the second piece. -/
theorem concat_mid {α : Type} (u0 : S8192x3.Idx → α) (u1 u2 : S8192x1.Idx → α) (i : Fin 8192) (k : Fin 5) (hk : k.val = 3) :
    concatenate S8192x5 1 [⟨S8192x3, u0⟩, ⟨S8192x1, u1⟩, ⟨S8192x1, u2⟩]
      concatenates_S8192x3_S8192x1_S8192x1_S8192x5_d1 (ix2 i k) = u1 (ix2 i 0) :=
  concatenate_apply_piece (1 : Fin S8192x5.rank) _ _ (ix2 i k) 1 (by show (1 : Nat) < 3; omega) S8192x1 u1 rfl rfl 3 rfl (ix2 i 0)
    (fun b hb => match b with
      | ⟨0, _⟩ => rfl
      | ⟨1, _⟩ => absurd rfl hb)
    (by show 3 + 0 = k.val; omega)

/-- Read in its fifth column it is the third piece. -/
theorem concat_right {α : Type} (u0 : S8192x3.Idx → α) (u1 u2 : S8192x1.Idx → α) (i : Fin 8192) (k : Fin 5) (hk : k.val = 4) :
    concatenate S8192x5 1 [⟨S8192x3, u0⟩, ⟨S8192x1, u1⟩, ⟨S8192x1, u2⟩]
      concatenates_S8192x3_S8192x1_S8192x1_S8192x5_d1 (ix2 i k) = u2 (ix2 i 0) :=
  concatenate_apply_piece (1 : Fin S8192x5.rank) _ _ (ix2 i k) 2 (by show (2 : Nat) < 3; omega) S8192x1 u2 rfl rfl 4 rfl (ix2 i 0)
    (fun b hb => match b with
      | ⟨0, _⟩ => rfl
      | ⟨1, _⟩ => absurd rfl hb)
    (by show 4 + 0 = k.val; omega)

/-- The host's row sum of squares at row i: the sum of the three squared coordinates. -/
theorem sqv_apply (X : Vec Ideal S8192x3 .f32) (i : Fin 8192) :
    sqv X (ix1 i) = ∑ k : Fin 3, X (ix2 i k) * X (ix2 i k) := by
  have h0 : sqv X (ix1 i) = (constant (F := Ideal) S_ .f32 0x00000000#32) (Shape.Idx.first h_S_)
      + ∑ k : Fin 3, (mulf X X : FVec Ideal S8192x3 .f32) (ix2 i k) := by
    unfold sqv
    generalize (mulf X X : FVec Ideal S8192x3 .f32) = y0
    simp only [Host.reduceAdd, Ideal.hostReduceAdd_def]
    rw [Ideal.hostReduceAdd_single reducesTo_S8192x3_S8192_d1 (by decide)]
    refine congrArg (_ + ·) (Finset.sum_congr rfl fun k _ => ?_)
    exact congrArg y0 (funext fun a => Fin.ext (by match a with | ⟨0, _⟩ => rfl | ⟨1, _⟩ => rfl))
  rw [h0, constant_apply, Ideal.ofBits_zero_f32, zero_add]
  rfl

/-- The squared-norm column read at row i. -/
theorem sq_col_apply (X : Vec Ideal S8192x3 .f32) (i : Fin 8192) :
    broadcastInDim S8192x1 ![0] bcast_S8192_S8192x1_0 (sqv X) (ix2 i 0) = ∑ k : Fin 3, X (ix2 i k) * X (ix2 i k) := by
  rw [← sqv_apply]
  exact broadcastInDim_apply _ bcast_S8192_S8192x1_0 (sqv X) (ix2 i 0) (ix1 i) (fun a => match a with
    | ⟨0, _⟩ => by show i.val = if (8192 : Nat) = 1 then 0 else i.val; rw [if_neg (by decide)])

/-- The sum of the squared coordinates of point i, formed in the extended reals, is its squared norm. -/
theorem lift_sq (p : Fin 8192 → Fin 3 → ℝ) (i : Fin 8192) :
    ∑ k : Fin 3, lift p (ix2 i k) * lift p (ix2 i k) = ((sqn p i : ℝ) : EReal) := by
  show ∑ k : Fin 3, ((p i k : ℝ) : EReal) * ((p i k : ℝ) : EReal) = _
  simp only [sqn, Fin.sum_univ_three, EReal.coe_add, EReal.coe_mul]

/-- Row i of the host's left matrix is the left augmented row of point i. -/
theorem Amat_apply (p : Fin 8192 → Fin 3 → ℝ) (i : Fin 8192) (k : Fin 5) :
    Amat (lift p) (ix2 i k) = ((arow p i k : ℝ) : EReal) := by
  unfold Amat
  by_cases h3 : k.val < 3
  · rw [concat_left _ _ _ i k h3]
    show Ideal.ofBits .f32 0xC0000000#32 * ((p i ⟨k.val, h3⟩ : ℝ) : EReal) = _
    rw [neg_two_val, ← EReal.coe_mul]
    congr 1
    match k, h3 with
    | ⟨0, _⟩, _ => rfl
    | ⟨1, _⟩, _ => rfl
    | ⟨2, _⟩, _ => rfl
  · by_cases h4 : k.val = 3
    · rw [concat_mid _ _ _ i k h4, sq_col_apply, lift_sq]
      have : k = 3 := Fin.ext h4
      subst this; rfl
    · have h5 : k.val = 4 := by have := k.isLt; omega
      rw [concat_right _ _ _ i k h5]
      show Ideal.ofBits .f32 0x3F800000#32 = _
      rw [one_val]
      have : k = 4 := Fin.ext h5
      subst this; rfl

/-- Row j of the host's right matrix is the right augmented row of point j. -/
theorem Bmat_apply (p : Fin 8192 → Fin 3 → ℝ) (j : Fin 8192) (k : Fin 5) :
    Bmat (lift p) (ix2 j k) = ((brow p j k : ℝ) : EReal) := by
  unfold Bmat
  by_cases h3 : k.val < 3
  · rw [concat_left _ _ _ j k h3]
    show ((p j ⟨k.val, h3⟩ : ℝ) : EReal) = _
    congr 1
    match k, h3 with
    | ⟨0, _⟩, _ => rfl
    | ⟨1, _⟩, _ => rfl
    | ⟨2, _⟩, _ => rfl
  · by_cases h4 : k.val = 3
    · rw [concat_mid _ _ _ j k h4]
      show Ideal.ofBits .f32 0x3F800000#32 = _
      rw [one_val]
      have : k = 3 := Fin.ext h4
      subst this; rfl
    · have h5 : k.val = 4 := by have := k.isLt; omega
      rw [concat_right _ _ _ j k h5, sq_col_apply, lift_sq]
      have : k = 4 := Fin.ext h5
      subst this; rfl

/-! ## The bit of a chunk whose rows are augmented rows -/

/-- When row r of the left block is the left augmented row of point i and row q of the right block is the right
    augmented row of point j, the comparison bit at (r, q) says whether the two points are within distance 3. -/
theorem chunkBit_within (p : Fin 8192 → Fin 3 → ℝ) (xa : Vec Ideal S2048x5 .f32) (xb : Vec Ideal S512x5 .f32)
    (r : Fin 2048) (q : Fin 512) (i j : Fin 8192)
    (ha : ∀ k : Fin 5, xa (ix2 r k) = ((arow p i k : ℝ) : EReal))
    (hb : ∀ k : Fin 5, xb (ix2 q k) = ((brow p j k : ℝ) : EReal)) :
    chunkBit xa xb (ix2 r q) = within p i j := by
  rw [chunkBit_real xa xb r q (arow p i) (brow p j) ha hb, aug_inner]
  rfl

end Cert.KernelSide

end
-- ==== Proof.MaskArray.lean ====
/-
  What the tiled program's result array holds: the adjacency mask of the point cloud.

  The region's word array is written tile by tile.  Tile (I, J) of it is filled from rows 2048·I … of the left augmented
  matrix and rows 2048·J … of the right one; column block n of the tile compares, entry by entry, the length-5 inner
  product of a left row with a right row against 9 and stores the comparison bit widened to a word.  With real point
  coordinates the left row is (−2pᵢ, ‖pᵢ‖², 1), the right row is (pⱼ, 1, ‖pⱼ‖²), and their inner product is the
  expanded squared distance of points i and j: every entry of the tile is the word of "points i, j are within distance
  3", at i = 2048·I + row, j = 2048·J + column.  The sixteen tiles are disjoint and fill the array, so the array is
  that word everywhere; the host operations after the region test each word against 0, which gives the bit back.
-/
import proofs.«151398_j73478300500255_2_alg».proof.Proof.TilesIdeal
import proofs.«151398_j73478300500255_2_alg».proof.Proof.LibNary3
import proofs.«151398_j73478300500255_2_alg».proof.Proof.Spec
import proofs.«151398_j73478300500255_2_alg».proof.Proof.KernelSide
import Idealize.ShloMosaic.Lib.Pipeline.Value
import Idealize.ShloMosaic.Lib.ValueIdx

set_option maxRecDepth 16384

noncomputable section

namespace Cert.KernelIdeal.MaskValue

open Cert.KernelIdeal Cert.KernelIdeal.Gen Cert.KernelIdeal.Tiles Cert.KernelSide Cert.RadiusMask
open Idealize.ShloMosaic Idealize.ShloMosaic.TcCoe Idealize.ShloMosaic.ValueIdx Idealize.ShloMosaic.StableHlo
open Idealize.SL.Sem
open Idealize.ShloMosaic.Pipeline (Dat)
open scoped BigOperators

variable (m : (ℓ : Loc nD τ sig) → Buf (Elt Ideal) ℓ) (ρ : Dev nD → PrngReg) (p : Fin 8192 → Fin 3 → ℝ)

/-! ## The two augmented matrices, as the region finds them -/

/-- The left matrix is the concatenation (−2·points, squared norms, ones). -/
theorem entry_left (c : Dev nD) : entryAt m c main_v6 = Amat (m ((c : Thread nD τ).loc main_arg0)) := by
  show StableHlo.after hostOps0 (fun b => m (c, b)) (Proc.devRef .tc main_v6) = _
  after_results3
  rfl

/-- The right matrix is the concatenation (points, ones, squared norms). -/
theorem entry_right (c : Dev nD) : entryAt m c main_v7 = Bmat (m ((c : Thread nD τ).loc main_arg0)) := by
  show StableHlo.after hostOps0 (fun b => m (c, b)) (Proc.devRef .tc main_v7) = _
  after_results3
  rfl

/-! ## The grid -/

/-- At every grid point the left matrix's block index is the tile's row index, the right matrix's is the tile's column
    index, and both tile indices are at most 3. -/
theorem grid_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 3 :=
  (by decide +kernel : ∀ t : Fin grid0.N, _)

/-- Every tile index is some grid point's. -/
theorem grid_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-! ## One tile -/

theorem zero_offsets : (![0, 0] : Fin 2 → Nat) = fun _ => 0 := funext fun a => by fin_cases a <;> rfl

/-- Row `r` of tile row `I` is point `2048·I + r`. -/
def tilePt (I : ℕ) (hI : I ≤ 3) (r : Fin 2048) : Fin 8192 := ⟨2048 * I + r.val, by have := r.isLt; omega⟩

/-- Entry `y` of tile (I, J) of the mask, as a word. -/
def tileWord (I J : ℕ) (hI : I ≤ 3) (hJ : J ≤ 3) (y : S2048x2048.Idx) : BitVec 32 :=
  (within p (tilePt I hI (y 0)) (tilePt J hJ (y 1))).setWidth 32

/-- The whole mask, as words. -/
def maskWords : IVec S8192x8192 32 := extui 32 (mask p) natLt_1_32

/-- An entry of a column block whose left row is the augmented row of point `i` and whose right row is the augmented
    row of point `j` is the word of "i and j are within distance 3": the inner product of the two augmented rows is the
    expanded squared distance. -/
theorem chunk_entry (xa : Vec Ideal S2048x5 .f32) (xb : Vec Ideal S512x5 .f32) (r : Fin 2048) (q : Fin 512) (i j : Fin 8192)
    (ha : ∀ k : Fin 5, xa (ix2 r k) = ((arow p i k : ℝ) : EReal)) (hb : ∀ k : Fin 5, xb (ix2 q k) = ((brow p j k : ℝ) : EReal)) :
    chunkWord xa xb (ix2 r q) = (within p i j).setWidth 32 := by
  show (chunkBit xa xb (ix2 r q)).setWidth 32 = _
  rw [chunkBit_real xa xb r q _ _ ha hb, aug_inner]
  rfl

/-- Rows 512·n … of the right row block, read at (q, k), are its row 512·n + q. -/
theorem right_rows_at (n : Fin 4) (x1 : Vec Ideal S2048x5 .f32) (q : Fin 512) (k : Fin 5) :
    View.ld x1 (Rect.unit (s := S2048x5) (k0_off1 (BitVec.ofNat 32 n.val)) S512x5.size (k0_off1_inb n)) (ix2 q k)
      = x1 (ix2 (⟨512 * n.val + q.val, by have := n.isLt; have := q.isLt; omega⟩ : Fin 2048) k) := by
  show x1 ((Rect.unit (s := S2048x5) (k0_off1 (BitVec.ofNat 32 n.val)) S512x5.size (k0_off1_inb n)).idx (ix2 q k)) = _
  congr 1
  funext a
  apply Fin.ext
  have e := k0_off1_eq n
  match a with
  | ⟨0, _⟩ =>
    show k0_off1 (BitVec.ofNat 32 n.val) (0 : Fin 2) + 1 * q.val = 512 * n.val + q.val
    rw [e]; show 512 * n.val + 1 * q.val = _; omega
  | ⟨1, _⟩ =>
    show k0_off1 (BitVec.ofNat 32 n.val) (1 : Fin 2) + 1 * k.val = k.val
    rw [e]; show 0 + 1 * k.val = _; omega

/-- Entry (r, q) of column block n of the tile is the tile's entry (r, 512·n + q). -/
theorem cols_at (n : Fin 4) (r : Fin 2048) (q : Fin 512) :
    (Rect.unit (s := S2048x2048) (k0_off2 (BitVec.ofNat 32 n.val)) S2048x512.size (k0_off2_inb n)).emb (ix2 r q)
      = ix2 r (⟨512 * n.val + q.val, by have := n.isLt; have := q.isLt; omega⟩ : Fin 2048) := by
  funext a
  apply Fin.ext
  have e := k0_off2_eq n
  match a with
  | ⟨0, _⟩ =>
    show k0_off2 (BitVec.ofNat 32 n.val) (0 : Fin 2) + 1 * r.val = r.val
    rw [e]; show 0 + 1 * r.val = _; omega
  | ⟨1, _⟩ =>
    show k0_off2 (BitVec.ofNat 32 n.val) (1 : Fin 2) + 1 * q.val = 512 * n.val + q.val
    rw [e]; show 512 * n.val + 1 * q.val = _; omega

/-- One column block of the tile: its payload at (r, q) is the tile's word at the entry it is stored to. -/
theorem chunk_of_rows (n : Fin 4) (x0 x1 : Vec Ideal S2048x5 .f32) (I J : ℕ) (hI : I ≤ 3) (hJ : J ≤ 3)
    (h0 : ∀ (r : Fin 2048) (k : Fin 5), x0 (ix2 r k) = ((arow p (tilePt I hI r) k : ℝ) : EReal))
    (h1 : ∀ (r : Fin 2048) (k : Fin 5), x1 (ix2 r k) = ((brow p (tilePt J hJ r) k : ℝ) : EReal))
    (x : S2048x512.Idx) :
    chunkWord (View.ld x0 leftRows) (View.ld x1 (Rect.unit (s := S2048x5) (k0_off1 (BitVec.ofNat 32 n.val)) S512x5.size (k0_off1_inb n))) x
      = tileWord p I J hI hJ ((Rect.unit (s := S2048x2048) (k0_off2 (BitVec.ofNat 32 n.val)) S2048x512.size (k0_off2_inb n)).emb x) := by
  obtain ⟨r, q, rfl⟩ : ∃ (r : Fin 2048) (q : Fin 512), x = ix2 r q := ⟨x 0, x 1, eq_ix2 x⟩
  rw [View.ld_unit_zero zero_offsets inb_S2048x5_S2048x5_0_0 x0, cols_at n r q]
  exact chunk_entry p x0 _ r q (tilePt I hI r) (tilePt J hJ ⟨512 * n.val + q.val, by have := n.isLt; have := q.isLt; omega⟩)
    (fun k => h0 r k) (fun k => (right_rows_at n x1 q k).trans (h1 _ k))

/-- The tile the body leaves, from row blocks holding the augmented rows of points 2048·I … and 2048·J …: the mask's
    words on tile (I, J). Each of the four column blocks agrees with it where it is stored, and the four cover the tile. -/
theorem tile_of_rows (x0 x1 : Vec Ideal S2048x5 .f32) (I J : ℕ) (hI : I ≤ 3) (hJ : J ≤ 3)
    (h0 : ∀ (r : Fin 2048) (k : Fin 5), x0 (ix2 r k) = ((arow p (tilePt I hI r) k : ℝ) : EReal))
    (h1 : ∀ (r : Fin 2048) (k : Fin 5), x1 (ix2 r k) = ((brow p (tilePt J hJ r) k : ℝ) : EReal))
    (y : S2048x2048.Idx) :
    maskTile (F := Ideal) x0 x1 y = tileWord p I J hI hJ y := by
  unfold maskTile
  refine View.canon_apply_of_pieces (tileWord p I J hI hJ) _ ?_ y (cols_cover (F := Ideal) _ _ _ _ y)
  intro pc hpc x
  simp only [List.mem_cons, List.mem_nil_iff, or_false] at hpc
  rcases hpc with rfl | rfl | rfl | rfl
  · exact (congrFun (pay2_eq _ _) x).trans (chunk_of_rows p 3 x0 x1 I J hI hJ h0 h1 x)
  · exact (congrFun (pay1_eq _ _) x).trans (chunk_of_rows p 2 x0 x1 I J hI hJ h0 h1 x)
  · exact (congrFun (pay5_eq _ _) x).trans (chunk_of_rows p 1 x0 x1 I J hI hJ h0 h1 x)
  · exact (congrFun (pay4_eq _ _) x).trans (chunk_of_rows p 0 x0 x1 I J hI hJ h0 h1 x)

/-! ## From the tiles to the array -/

/-- What grid point `t` writes back is tile `t` of the mask's words. -/
theorem flushed_words (c : Dev nD) (hp : m ((c : Thread nD τ).loc main_arg0) = lift p) (t : Fin cfg0.N) :
    (tiles m 0 c).flushed 2 t = ((cfg0.win 2).blk t).view.read (Elt Ideal) (maskWords p) := by
  show (cfg0.win 2).cut (grid0.coords t) ((tiles m 0 c).after 2 t) = _
  rw [after_out]
  obtain ⟨e0, e1, e2, e3, e4, e5⟩ := grid_facts t
  funext y
  show maskTile (F := Ideal) (blockAt m c 0 t) (blockAt m c 1 t) y = maskWords p (((cfg0.win 2).blk t).view.emb y)
  refine (tile_of_rows p (blockAt m c 0 t) (blockAt m c 1 t) (win0_2.index t (0 : Fin 2)) (win0_2.index t (1 : Fin 2)) e4 e5 ?_ ?_ y).trans ?_
  · intro r k
    show entryAt m c main_v6 (((cfg0.win 0).blk t).view.emb (ix2 r k)) = _
    rw [entry_left, hp]
    have hidx : ((cfg0.win 0).blk t).view.emb (ix2 r k) = ix2 (tilePt (win0_2.index t (0 : Fin 2)) e4 r) k := by
      funext a
      apply Fin.ext
      match a with
      | ⟨0, _⟩ =>
        show win0_0.index t (0 : Fin 2) * 2048 + 1 * r.val = 2048 * win0_2.index t (0 : Fin 2) + r.val
        omega
      | ⟨1, _⟩ =>
        show win0_0.index t (1 : Fin 2) * 5 + 1 * k.val = k.val
        omega
    rw [hidx]
    exact Amat_apply p _ k
  · intro r k
    show entryAt m c main_v7 (((cfg0.win 1).blk t).view.emb (ix2 r k)) = _
    rw [entry_right, hp]
    have hidx : ((cfg0.win 1).blk t).view.emb (ix2 r k) = ix2 (tilePt (win0_2.index t (1 : Fin 2)) e5 r) k := by
      funext a
      apply Fin.ext
      match a with
      | ⟨0, _⟩ =>
        show win0_1.index t (0 : Fin 2) * 2048 + 1 * r.val = 2048 * win0_2.index t (1 : Fin 2) + r.val
        omega
      | ⟨1, _⟩ =>
        show win0_1.index t (1 : Fin 2) * 5 + 1 * k.val = k.val
        omega
    rw [hidx]
    exact Bmat_apply p _ k
  · show (within p (tilePt _ e4 (y 0)) (tilePt _ e5 (y 1))).setWidth 32
      = (within p ((((cfg0.win 2).blk t).view.emb y) 0) ((((cfg0.win 2).blk t).view.emb y) 1)).setWidth 32
    congr 2
    · apply Fin.ext
      show 2048 * win0_2.index t (0 : Fin 2) + (y 0).val = win0_2.index t (0 : Fin 2) * 2048 + 1 * (y 0).val
      omega
    · apply Fin.ext
      show 2048 * win0_2.index t (1 : Fin 2) + (y 1).val = win0_2.index t (1 : Fin 2) * 2048 + 1 * (y 1).val
      omega

/-- An entry of the array is in grid point `t`'s tile iff each coordinate is in the tile's range. -/
theorem mem_tile (t : Fin cfg0.N) (i : S8192x8192.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v8).slice (win0_2.rect t)).set ↔ _
  rw [View.set_slice_whole, Rect.mem_set_unit]
  exact Iff.rfl

/-- Every entry of the array is in some grid point's tile: the one at (row / 2048, column / 2048). -/
theorem tiles_fill (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := grid_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_tile]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 2048 ≤ (i 1).val ∧ (i 1).val < win0_2.index t (1 : Fin 2) * 2048 + 2048
    omega

/-- The region's word array after the run: the mask's words. -/
theorem words_array (c : Dev nD) (hp : m ((c : Thread nD τ).loc main_arg0) = lift p) :
    (tiles m 0 c).arrAt 2 cfg0.N = maskWords p :=
  (tiles m 0 c).arrAt_eq_of_cover 2 (maskWords p) (fun t _ => flushed_words m p c hp t) tiles_fill

/-! ## The host operations after the region -/

/-- The result buffer after the second line of host operations: each word tested against 0, which is the mask. -/
theorem result_bits (c : Dev nD) (hp : m ((c : Thread nD τ).loc main_arg0) = lift p) :
    Pipeline.afterTail₀ cfgs (tiles m) 0 (entryVal m) [hostOps1] c main_v11 = mask p := by
  unfold Pipeline.afterTail₀
  show StableHlo.after hostOps1 _ (Proc.devRef .tc main_v11) = _
  after_results
  rw [Pipeline.withArrays_arr spec0 launch0.win.arr_inj c _ _ 2, words_array m p c hp]
  exact word_ne_zero_bcast (mask p) natLt_1_32 bcast_S_S8192x8192

/-! ## The run, read -/

/-- From real point coordinates on every device: every weakly fair execution terminates without a fault, the result buffer ends at
    the adjacency mask and the point cloud as launched. -/
theorem run (P : Dev nD → Fin 8192 → Fin 3 → ℝ) (hP : ∀ c : Dev nD, m ((c : Thread nD τ).loc main_arg0) = lift (P c)) :
    θ_run defs (onTc (τ := τ) (main (F := Ideal))) ⟨m, fun _ => 0, ρ⟩ fun r => ∀ c : Dev nD,
      r.2.mem ((c : Thread nD τ).loc main_v11) = mask (P c)
      ∧ r.2.mem ((c : Thread nD τ).loc main_arg0) = m ((c : Thread nD τ).loc main_arg0) :=
  (θ_run defs _ _).mono (fun r h c =>
      ⟨((h c).2 main_v11 (Pipeline.mem_restRefs_of main_v11 (by decide) (by decide))).trans (result_bits m (P c) c (hP c)),
        ((h c).2 main_arg0 (Pipeline.mem_restRefs_of main_arg0 (by decide) (by decide))).trans (exit_points m (tiles m) c)⟩)
    (run_main m ρ)

end Cert.KernelIdeal.MaskValue

end
-- ==== Proof.RefSide.lean ====
/-
  The reference program's side of the radius mask.

  The reference evaluates the squared distance term by term: the squared norms `‖pᵢ‖²` and `‖pⱼ‖²` as 3-term sums,
  the inner product `⟨pᵢ, pⱼ⟩` as a 3-term contraction, their combination `‖pᵢ‖² + ‖pⱼ‖² − 2·⟨pᵢ, pⱼ⟩`, a clamp below at
  0, and the comparison with 9.  Over real point coordinates every step is real arithmetic, so the result is the mask
  of the specification.  A finite input array is the image of real point coordinates.
-/
import proofs.«151398_j73478300500255_2_alg».proof.Proof.Spec
import proofs.«151398_j73478300500255_2_alg».proof.Proof.Gen.ReferenceIdeal.Read
import proofs.«151398_j73478300500255_2_alg».proof.Proof.Gen.Pre_finite_inputs
import Idealize.ShloMosaic.Lib.ReduceAll
import Idealize.ShloMosaic.Lib.ValueIdx
import Idealize.ShloMosaic.PureOps.Ideal.Laws

noncomputable section

namespace Cert.RefSide

open Idealize.ShloMosaic Idealize.ShloMosaic.ValueIdx
open scoped BigOperators

instance : Subsingleton Cert.Pre_finite_inputs.S_.Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- An array every entry of which has absolute value below `+∞` is an array of reals: the finiteness predicate
    holds only of the images of real point coordinates. -/
theorem real_of_finite (X : (⟨2, ![8192, 3]⟩ : Shape).Idx → EReal)
    (h : Cert.Pre_finite_inputs.fn (F := Ideal) X = fun _ => 1#1) :
    ∃ p : Fin 8192 → Fin 3 → ℝ, X = Cert.RadiusMask.lift p := by
  have h0 := congrFun h ix0
  dsimp only [Cert.Pre_finite_inputs.fn] at h0
  have hel := fun i => Host.reduce_andi_all _ _ _ _ ix0 h0 i
  have key : ∀ i, ∃ r : ℝ, X i = (r : EReal) := by
    intro i
    have hi : Ideal.cmp .olt (max (X i) (-(X i))) (Ideal.ofBits .f32 0x7F800000#32) = 1#1 := hel i
    rw [ofBits_inf] at hi
    generalize X i = x at hi
    induction x using EReal.rec with
    | bot => simp [Ideal.cmp] at hi
    | coe r => exact ⟨r, rfl⟩
    | top => simp [Ideal.cmp] at hi
  choose q hq using key
  refine ⟨fun i k => q (ix2 i k), funext fun x => ?_⟩
  rw [hq x]
  exact congrArg (fun z => ((q z : ℝ) : EReal)) (eq_ix2 x)

open Cert.ReferenceIdeal.Read Cert.RadiusMask

/-- The pattern `0x00000000` denotes the real `0`. -/
theorem ofBits_zero : Ideal.ofBits .f32 0x00000000#32 = ((0 : ℝ) : EReal) := by
  simp [Ideal.ofBits, Ideal.ieee]

/-- The pattern `0x40000000` denotes the real `2`. -/
theorem ofBits_two : Ideal.ofBits .f32 0x40000000#32 = ((2 : ℝ) : EReal) := by
  simp [Ideal.ofBits, Ideal.ieee, -EReal.coe_mul]; norm_num

/-- The pattern `0x41100000` denotes the real `9`. -/
theorem ofBits_nine : Ideal.ofBits .f32 0x41100000#32 = ((9 : ℝ) : EReal) := by
  simp [Ideal.ofBits, Ideal.ieee, -EReal.coe_mul]; norm_num

/-- The embedding of the reals in the extended reals commutes with `max`. -/
theorem coe_max_real (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The squared norms spread along the second axis: entry `(i, j)` is `‖pᵢ‖²`. -/
theorem sq_row (p : Fin 8192 → Fin 3 → ℝ) (i j : Fin 8192) :
    val_main_v4 (F := Ideal) (lift p) (ix2 i j) = ((sqn p i : ℝ) : EReal) := by
  rw [val_main_v4_apply, val_main_v2_apply, val_main_v1_apply, val_main_cst_apply]
  simp only [val_main_v0_apply, Fin.sum_univ_three, Ideal.ofBits_def, Ideal.mulf_def, ofBits_zero]
  have e : ∀ k : Fin 3, lift p (idx_main_v1 (idx_main_v2 (idx_main_v4 (ix2 i j))) k) = ((p i k : ℝ) : EReal) :=
    fun k => rfl
  simp only [e, ← EReal.coe_mul, ← EReal.coe_add, sqn, Fin.sum_univ_three, zero_add]

/-- The squared norms spread along the first axis: entry `(i, j)` is `‖pⱼ‖²`. -/
theorem sq_col (p : Fin 8192 → Fin 3 → ℝ) (i j : Fin 8192) :
    val_main_v5 (F := Ideal) (lift p) (ix2 i j) = ((sqn p j : ℝ) : EReal) := by
  rw [val_main_v5_apply, val_main_v3_apply, val_main_v1_apply, val_main_cst_apply]
  simp only [val_main_v0_apply, Fin.sum_univ_three, Ideal.ofBits_def, Ideal.mulf_def, ofBits_zero]
  have e : ∀ k : Fin 3, lift p (idx_main_v1 (idx_main_v3 (idx_main_v5 (ix2 i j))) k) = ((p j k : ℝ) : EReal) :=
    fun k => rfl
  simp only [e, ← EReal.coe_mul, ← EReal.coe_add, sqn, Fin.sum_univ_three, zero_add]

/-- The contraction of the points with their transpose: entry `(i, j)` is `⟨pᵢ, pⱼ⟩`. -/
theorem gram_val (p : Fin 8192 → Fin 3 → ℝ) (i j : Fin 8192) :
    val_main_v8 (F := Ideal) (lift p) (ix2 i j) = ((gram p i j : ℝ) : EReal) := by
  rw [val_main_v8_apply]
  simp only [val_main_v7_apply, Fin.sum_univ_three]
  have e1 : ∀ k : Fin 3, lift p (lidx_main_v8 (ix2 i j) k) = ((p i k : ℝ) : EReal) := fun k => rfl
  have e2 : ∀ k : Fin 3, lift p (idx_main_v7 (ridx_main_v8 (ix2 i j) k)) = ((p j k : ℝ) : EReal) := fun k => rfl
  simp only [e1, e2, ← EReal.coe_mul, ← EReal.coe_add, gram, Fin.sum_univ_three]

/-- The reference, run on real point coordinates, returns the mask of the specification: the clamped expanded
    squared distance compared with 9. -/
theorem ref_mask (p : Fin 8192 → Fin 3 → ℝ) :
    Cert.ReferenceIdeal.Read.val_main_v15 (F := Ideal) (Cert.RadiusMask.lift p) = Cert.RadiusMask.mask p := by
  funext y
  obtain ⟨i, j, rfl⟩ : ∃ i j, y = ix2 i j := ⟨y 0, y 1, eq_ix2 y⟩
  rw [val_main_v15_apply, val_main_v13_apply, val_main_v11_apply, val_main_v6_apply, val_main_v10_apply,
    val_main_v9_apply, val_main_cst_0_apply, val_main_v12_apply, val_main_cst_1_apply, val_main_v14_apply,
    val_main_cst_2_apply, sq_row, sq_col, gram_val]
  simp only [Ideal.ofBits_def, Ideal.addf_def, Ideal.subf_def, Ideal.mulf_def, Ideal.maximumf_def, ofBits_zero,
    ofBits_two, ofBits_nine, ← EReal.coe_mul, ← EReal.coe_add, ← EReal.coe_sub, coe_max_real]
  have hiff : (((max (sqn p i + sqn p j - 2 * gram p i j) 0 : ℝ) : EReal) ≤ ((9 : ℝ) : EReal)) ↔ dist2 p i j ≤ 9 := by
    rw [EReal.coe_le_coe_iff, clamp_le_nine]; rfl
  exact congrArg BitVec.ofBool (decide_eq_decide.2 hiff)

end Cert.RefSide

end
-- ==== Proof.lean ====
/-
  The radius-mask certificate: a tiled program and a plain one compute the same adjacency mask of a point cloud.

  For 8192 points in ℝ³, entry (i, j) of the result says whether points i and j are within distance 3.  The plain
  program evaluates ‖pᵢ‖² + ‖pⱼ‖² − 2·⟨pᵢ, pⱼ⟩ term by term, clamps it below at 0 and compares with 9.  The tiled
  program first builds the augmented rows aᵢ = (−2pᵢ, ‖pᵢ‖², 1) and bⱼ = (pⱼ, 1, ‖pⱼ‖²), whose length-5 inner product is
  the same expression, and compares that with 9, tile by tile, with no clamp.  On finite inputs every quantity is a
  real number; there the two expressions are equal and the clamp cannot change a comparison with 9, so the two results
  are the same bits.  Finiteness is needed: the identity between the two expressions distributes −2 over a sum, which
  fails at infinities.

  The three frame claims: each program terminates without a fault and leaves the point cloud unchanged (the tiled
  program by its tiles, at the word level and at the ideal level by the same argument; the plain program by its run
  read back).  The idealization rewrote nothing, so it preserves the program trivially.
-/
import proofs.«151398_j73478300500255_2_alg».proof.Defs
import proofs.«151398_j73478300500255_2_alg».proof.Proof.Gen.Kernel
import proofs.«151398_j73478300500255_2_alg».proof.Proof.Gen.KernelIdeal
import proofs.«151398_j73478300500255_2_alg».proof.Proof.Gen.ReferenceIdeal
import proofs.«151398_j73478300500255_2_alg».proof.Proof.Gen.Pre_finite_inputs
import proofs.«151398_j73478300500255_2_alg».proof.Proof.Gen.ReferenceIdeal.Run
import proofs.«151398_j73478300500255_2_alg».proof.Proof.Gen.ReferenceIdeal.Read
import proofs.«151398_j73478300500255_2_alg».proof.Proof.TilesBits
import proofs.«151398_j73478300500255_2_alg».proof.Proof.TilesIdeal
import proofs.«151398_j73478300500255_2_alg».proof.Proof.MaskArray
import proofs.«151398_j73478300500255_2_alg».proof.Proof.RefSide
import Idealize.ShloMosaic.Adequacy
import Idealize.ShloMosaic.Init

noncomputable section

namespace Cert.Proof

open Idealize.ShloMosaic Idealize.ShloMosaic.TcCoe Idealize.SL.Sem

/-- The tiled program at the word level runs and keeps the point cloud. -/
theorem frame_word : Cert.frame_Kernel := fun m ρ _ => Cert.Kernel.Tiles.frame m ρ

/-- The tiled program at the ideal level runs and keeps the point cloud. -/
theorem frame_ideal : Cert.frame_KernelIdeal := fun m ρ _ => Cert.KernelIdeal.Tiles.frame m ρ

/-- The plain program runs and keeps the point cloud: its run, the result dropped. -/
theorem frame_plain : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- On a finite point cloud the coordinates are reals; from them the tiled program's result is the adjacency mask
    (its tiles, read), and so is the plain program's (its run, read one operation at a time). -/
theorem algebraic : Cert.algebraic_KernelIdeal_ReferenceIdeal := by
  intro m ρ m' ρ' hpre hagree
  choose P hP using fun c => Cert.RefSide.real_of_finite _ (hpre c)
  refine ⟨fun c => Cert.RadiusMask.mask (P c), Cert.KernelIdeal.MaskValue.run m ρ P hP, ?_⟩
  refine (θ_run Cert.ReferenceIdeal.defs _ _).mono (fun _ h c => ⟨(h c).1.trans ?_, (h c).2⟩)
    (Cert.ReferenceIdeal.Value.run (F := Ideal) m' ρ')
  rw [hagree c, hP c]
  exact (Cert.ReferenceIdeal.Read.val_main_v15_eq _).trans (Cert.RefSide.ref_mask (P c))

theorem claim : Cert.Claim :=
  ⟨Cert.Kernel.Gen.facts, Cert.KernelIdeal.Gen.facts, Cert.ReferenceIdeal.Gen.facts, Cert.Pre_finite_inputs.Gen.facts,
    frame_word, frame_ideal, frame_plain, preserves, algebraic⟩

end Cert.Proof

end
